-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x5x128x128 : Shape := ⟨4, ![128, 5, 128, 128]⟩
abbrev S_ : Shape := ⟨0, ![]⟩

class Facts : Prop where
  bcast_S_S128x5x128x128 : S_.BroadcastsInDim S128x5x128x128 (![] : Fin 0 → Fin S128x5x128x128.rank)
  reducesTo_S128x5x128x128_S_d0_1_2_3 : S128x5x128x128.ReducesTo [0, 1, 2, 3] S_
  h_S_ : 0 < S_.numel

variable [Facts]

def fn_part1 {F : FTy → Type} [FloatOps F] (main_v13 : IVec S_ 1) (main_v16 : IVec S128x5x128x128 1) : IVec S_ 1 :=
  let main_c_5 : IVec S_ 1 := constantI S_ 1 1#1
  let main_v17 : IVec S_ 1 := (fun x v => Host.reduce IntOp.andi x v reducesTo_S128x5x128x128_S_d0_1_2_3 h_S_) main_v16 main_c_5
  let main_v18 : IVec S_ 1 := andi main_v13 main_v17
  main_v18

def fn {F : FTy → Type} [FloatOps F] (main_arg0 : FVec F S128x5x128x128 .f32) (main_arg1 : FVec F S128x5x128x128 .f32) (main_arg2 : FVec F S128x5x128x128 .f32) (main_arg3 : FVec F S128x5x128x128 .f32) : IVec S_ 1 :=
  let main_v0 : FVec F S128x5x128x128 .f32 := Host.absf main_arg0
  let main_cst : FVec F S_ .f32 := constant S_ .f32 0x7F800000#32
  let main_v1 : FVec F S128x5x128x128 .f32 := broadcastInDim S128x5x128x128 ![] bcast_S_S128x5x128x128 main_cst
  let main_v2 : IVec S128x5x128x128 1 := cmpf .olt main_v0 main_v1
  let main_c : IVec S_ 1 := constantI S_ 1 1#1
  let main_v3 : IVec S_ 1 := (fun x v => Host.reduce IntOp.andi x v reducesTo_S128x5x128x128_S_d0_1_2_3 h_S_) main_v2 main_c
  let main_v4 : FVec F S128x5x128x128 .f32 := Host.absf main_arg1
  let main_cst_0 : FVec F S_ .f32 := constant S_ .f32 0x7F800000#32
  let main_v5 : FVec F S128x5x128x128 .f32 := broadcastInDim S128x5x128x128 ![] bcast_S_S128x5x128x128 main_cst_0
  let main_v6 : IVec S128x5x128x128 1 := cmpf .olt main_v4 main_v5
  let main_c_1 : IVec S_ 1 := constantI S_ 1 1#1
  let main_v7 : IVec S_ 1 := (fun x v => Host.reduce IntOp.andi x v reducesTo_S128x5x128x128_S_d0_1_2_3 h_S_) main_v6 main_c_1
  let main_v8 : IVec S_ 1 := andi main_v3 main_v7
  let main_v9 : FVec F S128x5x128x128 .f32 := Host.absf main_arg2
  let main_cst_2 : FVec F S_ .f32 := constant S_ .f32 0x7F800000#32
  let main_v10 : FVec F S128x5x128x128 .f32 := broadcastInDim S128x5x128x128 ![] bcast_S_S128x5x128x128 main_cst_2
  let main_v11 : IVec S128x5x128x128 1 := cmpf .olt main_v9 main_v10
  let main_c_3 : IVec S_ 1 := constantI S_ 1 1#1
  let main_v12 : IVec S_ 1 := (fun x v => Host.reduce IntOp.andi x v reducesTo_S128x5x128x128_S_d0_1_2_3 h_S_) main_v11 main_c_3
  let main_v13 : IVec S_ 1 := andi main_v8 main_v12
  let main_v14 : FVec F S128x5x128x128 .f32 := Host.absf main_arg3
  let main_cst_4 : FVec F S_ .f32 := constant S_ .f32 0x7F800000#32
  let main_v15 : FVec F S128x5x128x128 .f32 := broadcastInDim S128x5x128x128 ![] bcast_S_S128x5x128x128 main_cst_4
  let main_v16 : IVec S128x5x128x128 1 := cmpf .olt main_v14 main_v15
  fn_part1 (F := F) main_v13 main_v16
-- ==== Kernel.lean ====
abbrev S128x5x128x128 : Shape := ⟨4, ![128, 5, 128, 128]⟩
abbrev S1x1 : Shape := ⟨2, ![1, 1]⟩
abbrev S8x5x128x128 : Shape := ⟨4, ![8, 5, 128, 128]⟩
abbrev S8x1x128x128 : Shape := ⟨4, ![8, 1, 128, 128]⟩
abbrev S8x128x128 : Shape := ⟨3, ![8, 128, 128]⟩
abbrev S8x128 : Shape := ⟨2, ![8, 128]⟩
abbrev S8 : Shape := ⟨1, ![8]⟩
abbrev S8x1 : Shape := ⟨2, ![8, 1]⟩
abbrev S1 : Shape := ⟨1, ![1]⟩
abbrev S_ : Shape := ⟨0, ![]⟩

abbrev nBuf : Space → Nat
  | .hbm => 6
  | .vmem => 10
  | .smem => 0
  | _ => 0

abbrev bufTy : (tb : Table) → Fin (tcTables nBuf tb) → BufTy
  | .hbm, ⟨0, _⟩ => ⟨S128x5x128x128, .f32⟩
  | .hbm, ⟨1, _⟩ => ⟨S128x5x128x128, .f32⟩
  | .hbm, ⟨2, _⟩ => ⟨S128x5x128x128, .f32⟩
  | .hbm, ⟨3, _⟩ => ⟨S128x5x128x128, .f32⟩
  | .hbm, ⟨4, _⟩ => ⟨S1x1, .f32⟩
  | .hbm, ⟨5, _⟩ => ⟨S_, .f32⟩
  | .local _ .vmem, ⟨0, _⟩ => ⟨S8x5x128x128, .f32⟩
  | .local _ .vmem, ⟨1, _⟩ => ⟨S8x5x128x128, .f32⟩
  | .local _ .vmem, ⟨2, _⟩ => ⟨S8x5x128x128, .f32⟩
  | .local _ .vmem, ⟨3, _⟩ => ⟨S8x5x128x128, .f32⟩
  | .local _ .vmem, ⟨4, _⟩ => ⟨S8x5x128x128, .f32⟩
  | .local _ .vmem, ⟨5, _⟩ => ⟨S8x5x128x128, .f32⟩
  | .local _ .vmem, ⟨6, _⟩ => ⟨S8x5x128x128, .f32⟩
  | .local _ .vmem, ⟨7, _⟩ => ⟨S8x5x128x128, .f32⟩
  | .local _ .vmem, ⟨8, _⟩ => ⟨S1x1, .f32⟩
  | .local _ .vmem, ⟨9, _⟩ => ⟨S1x1, .f32⟩
  | _, _ => ⟨S128x5x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v29 : BitVec 1 := Scalar.cmpi .eq arg0 c15_i32
  let v30 : BitVec 32 := Scalar.extui v29
  let c0_i32_25 : BitVec 32 := 0#32
  let v31 : BitVec 1 := Scalar.cmpi .ne v30 c0_i32_25
  v31

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x5x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x5x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x5x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x5x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8x5x128x128_S8x5x128x128_0_0_0_0 : ∀ a, (![0, 0, 0, 0] : Fin 4 → Nat) a + S8x5x128x128.size a ≤ S8x5x128x128.size a
  h_S8x5x128x128 : 0 < S8x5x128x128.numel
  slices_S8x5x128x128_o0_0_0_0_S8x1x128x128 : S8x5x128x128.Slices ![0, 0, 0, 0] S8x1x128x128
  shapeCasts_S8x1x128x128_S8x128x128 : S8x1x128x128.ShapeCasts S8x128x128
  reduces_S8x5x128x128_S8x128x128 : S8x5x128x128.Reduces [1] S8x128x128
  reduces_S8x128x128_S8x128 : S8x128x128.Reduces [2] S8x128
  reduces_S8x128_S8 : S8x128.Reduces [1] S8
  shapeCasts_S8_S8x1 : S8.ShapeCasts S8x1
  reduces_S8x1_S1 : S8x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x5x128x128.size a ≤ S128x5x128x128.size a
  hwx0_0 : ∀ i : grid0.Coords, EltTy.bits .f32 = 32 ∨ (Rect.block (s := S128x5x128x128) S8x5x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x5x128x128.size a ≤ S128x5x128x128.size a
  hwx0_1 : ∀ i : grid0.Coords, EltTy.bits .f32 = 32 ∨ (Rect.block (s := S128x5x128x128) S8x5x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x5x128x128.size a ≤ S128x5x128x128.size a
  hwx0_2 : ∀ i : grid0.Coords, EltTy.bits .f32 = 32 ∨ (Rect.block (s := S128x5x128x128) S8x5x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x5x128x128.size a ≤ S128x5x128x128.size a
  hwx0_3 : ∀ i : grid0.Coords, EltTy.bits .f32 = 32 ∨ (Rect.block (s := S128x5x128x128) S8x5x128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_arg0) S8x5x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x5x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x5x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x5x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S128x5x128x128 : Shape := ⟨4, ![128, 5, 128, 128]⟩
abbrev S128x1x128x128 : Shape := ⟨4, ![128, 1, 128, 128]⟩
abbrev S128x128x128 : Shape := ⟨3, ![128, 128, 128]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S128x5x128x128, .f32⟩
  | .hbm, ⟨1, _⟩ => ⟨S128x5x128x128, .f32⟩
  | .hbm, ⟨2, _⟩ => ⟨S128x5x128x128, .f32⟩
  | .hbm, ⟨3, _⟩ => ⟨S128x5x128x128, .f32⟩
  | .hbm, ⟨4, _⟩ => ⟨S128x1x128x128, .f32⟩
  | .hbm, ⟨5, _⟩ => ⟨S128x128x128, .f32⟩
  | .hbm, ⟨6, _⟩ => ⟨S_, .f32⟩
  | .hbm, ⟨7, _⟩ => ⟨S128x128x128, .f32⟩
  | .hbm, ⟨8, _⟩ => ⟨S128x128x128, .i1⟩
  | .hbm, ⟨9, _⟩ => ⟨S128x5x128x128, .f32⟩
  | .hbm, ⟨10, _⟩ => ⟨S128x5x128x128, .f32⟩
  | .hbm, ⟨11, _⟩ => ⟨S128x5x128x128, .f32⟩
  | .hbm, ⟨12, _⟩ => ⟨S128x5x128x128, .f32⟩
  | .hbm, ⟨13, _⟩ => ⟨S128x5x128x128, .f32⟩
  | .hbm, ⟨14, _⟩ => ⟨S_, .f32⟩
  | .hbm, ⟨15, _⟩ => ⟨S128x128x128, .f32⟩
  | .hbm, ⟨16, _⟩ => ⟨S_, .f32⟩
  | .hbm, ⟨17, _⟩ => ⟨S128x128x128, .f32⟩
  | .hbm, ⟨18, _⟩ => ⟨S128x128x128, .f32⟩
  | .hbm, ⟨19, _⟩ => ⟨S_, .f32⟩
  | .hbm, ⟨20, _⟩ => ⟨S_, .f32⟩
  | _, _ => ⟨S128x5x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  slices_S128x5x128x128_S128x1x128x128_0_0_0_0 : S128x5x128x128.Slices ![0, 0, 0, 0] S128x1x128x128
  shapeCasts_S128x1x128x128_S128x128x128 : S128x1x128x128.ShapeCasts S128x128x128
  bcast_S_S128x128x128 : S_.BroadcastsInDim S128x128x128 (![] : Fin 0 → Fin S128x128x128.rank)
  reducesTo_S128x5x128x128_S128x128x128_d1 : S128x5x128x128.ReducesTo [1] S128x128x128
  h_S_ : 0 < S_.numel
  reducesTo_S128x128x128_S_d0_1_2 : S128x128x128.ReducesTo [0, 1, 2] S_

variable [Facts₀]

class Facts : Prop extends Facts₀ where

variable [Facts]
-- ==== Proof.LibBlockSum.lean ====
/-
  A finite sum over n·B consecutive indices, taken block by block.

  A contraction over a long axis is often computed in pieces: the axis is cut into n blocks of B entries, each block
  is summed by itself, and the partial sums are added up one after another. In a commutative monoid the order and
  the grouping of a finite sum do not matter, so the partial sums add up to the whole sum. Nothing is asked of the
  entries (no finiteness, no ring laws): the statement holds in any additive commutative monoid, the extended reals
  included.
-/
import Mathlib.Algebra.BigOperators.Fin
import Mathlib.Algebra.BigOperators.Ring.Finset
import Mathlib.Logic.Equiv.Fin.Basic

namespace Cert.LibBlockSum

open scoped BigOperators

variable {β : Type*} [AddCommMonoid β]

/-- The position, among n·B consecutive indices, of entry `r` of block `s`: `s·B + r`. -/
def blockIdx {n B : ℕ} (s : Fin n) (r : Fin B) : Fin (n * B) := finProdFinEquiv (s, r)

theorem blockIdx_val {n B : ℕ} (s : Fin n) (r : Fin B) : (blockIdx s r).val = r.val + B * s.val := rfl

/-- A sum over n·B indices is the sum, over the n blocks, of each block's B entries. -/
theorem sum_eq_sum_blocks (n B : ℕ) (g : Fin (n * B) → β) :
    ∑ k : Fin (n * B), g k = ∑ s : Fin n, ∑ r : Fin B, g (blockIdx s r) := by
  rw [← Equiv.sum_comp finProdFinEquiv g, Fintype.sum_prod_type]
  rfl

/-- The same with the blocks counted by the naturals below n (the form a fold over consecutive steps leaves):
    if `f s` is block `s`'s partial sum for every `s < n`, the partial sums add up to the whole sum. -/
theorem sum_range_blocks (n B : ℕ) (g : Fin (n * B) → β) (f : ℕ → β)
    (hf : ∀ s : Fin n, f s.val = ∑ r : Fin B, g (blockIdx s r)) :
    ∑ s ∈ Finset.range n, f s = ∑ k : Fin (n * B), g k := by
  rw [Finset.sum_range, sum_eq_sum_blocks]
  exact Finset.sum_congr rfl fun s _ => hf s

end Cert.LibBlockSum
-- ==== Proof.GatedSquares.lean ====
/-
  The quantity both programs compute: a gated sum of squared differences.

  Four arrays A, B, P, Q of shape [n, c, h, w] are given. At a cell (b, y, x) the squared differences of the two
  pairs are added over the channel axis,

      e(b, y, x) = Σ_k ( (A − P)² + (B − Q)² )(b, k, y, x),

  and the cell counts only where the mask channel g of A is not zero there:

      cell(b, y, x) = e(b, y, x)  if A(b, g, y, x) ≠ 0,   0 otherwise.

  The result is the sum of all cells, Σ_b Σ_y Σ_x cell(b, y, x).

  The batch axis may be cut into N blocks of B consecutive entries and each block summed by itself; the block sums
  then add up to the result, because a finite sum in a commutative monoid does not depend on order or grouping.
  No entry needs to be finite for this: subtraction, multiplication and the comparison are only ever applied entry by
  entry and identically on both sides, and the regrouping uses nothing but commutativity and associativity of +.
-/
import Idealize.ShloMosaic.Lib.ValueIdx
import Idealize.ShloMosaic.PureOps.Ideal
import proofs.«174446_j86655260164796_2_alg».proof.Proof.LibBlockSum

noncomputable section

namespace Cert.GatedSquares

open Idealize.ShloMosaic Idealize.ShloMosaic.ValueIdx
open scoped BigOperators

variable {n c h w : ℕ}

/-- The two squared differences at one entry, added. -/
def sq (A B P Q : (⟨4, ![n, c, h, w]⟩ : Shape).Idx → EReal) (i : (⟨4, ![n, c, h, w]⟩ : Shape).Idx) : EReal :=
  (A i - P i) * (A i - P i) + (B i - Q i) * (B i - Q i)

/-- One cell: the squared differences summed over the channels where the mask channel of A is not zero, else zero. -/
def cell (g : Fin c) (A B P Q : (⟨4, ![n, c, h, w]⟩ : Shape).Idx → EReal) (b : Fin n) (y : Fin h) (x : Fin w) : EReal :=
  Scalar.select (Ideal.cmp .one (A (ix4 b g y x)) 0) (∑ k : Fin c, sq A B P Q (ix4 b k y x)) 0

/-- All cells added. -/
def total (g : Fin c) (A B P Q : (⟨4, ![n, c, h, w]⟩ : Shape).Idx → EReal) : EReal :=
  ∑ b : Fin n, ∑ y : Fin h, ∑ x : Fin w, cell g A B P Q b y x

/-- A cell depends only on the entries of its own batch row: arrays that agree there give the same cell. -/
theorem cell_congr {n' : ℕ} (g : Fin c) (A B P Q : (⟨4, ![n, c, h, w]⟩ : Shape).Idx → EReal)
    (A' B' P' Q' : (⟨4, ![n', c, h, w]⟩ : Shape).Idx → EReal) (b : Fin n) (b' : Fin n') (y : Fin h) (x : Fin w)
    (hA : ∀ k, A' (ix4 b' k y x) = A (ix4 b k y x)) (hB : ∀ k, B' (ix4 b' k y x) = B (ix4 b k y x))
    (hP : ∀ k, P' (ix4 b' k y x) = P (ix4 b k y x)) (hQ : ∀ k, Q' (ix4 b' k y x) = Q (ix4 b k y x)) :
    cell g A' B' P' Q' b' y x = cell g A B P Q b y x := by
  unfold cell sq
  rw [hA g]
  refine congrArg (fun e => Scalar.select _ e 0) (Finset.sum_congr rfl fun k _ => ?_)
  rw [hA k, hB k, hP k, hQ k]

/-- The batch axis cut into N blocks of B rows: if, for every s < N, the arrays Y s are block s of the whole arrays
    (row r of block s is row s·B + r), the block totals add up to the whole total. -/
theorem total_blocks (N B : ℕ) (g : Fin c) (A0 A1 A2 A3 : (⟨4, ![N * B, c, h, w]⟩ : Shape).Idx → EReal)
    (Y0 Y1 Y2 Y3 : ℕ → (⟨4, ![B, c, h, w]⟩ : Shape).Idx → EReal)
    (h0 : ∀ (s : Fin N) (r : Fin B) k y x, Y0 s.val (ix4 r k y x) = A0 (ix4 (LibBlockSum.blockIdx s r) k y x))
    (h1 : ∀ (s : Fin N) (r : Fin B) k y x, Y1 s.val (ix4 r k y x) = A1 (ix4 (LibBlockSum.blockIdx s r) k y x))
    (h2 : ∀ (s : Fin N) (r : Fin B) k y x, Y2 s.val (ix4 r k y x) = A2 (ix4 (LibBlockSum.blockIdx s r) k y x))
    (h3 : ∀ (s : Fin N) (r : Fin B) k y x, Y3 s.val (ix4 r k y x) = A3 (ix4 (LibBlockSum.blockIdx s r) k y x)) :
    ∑ s ∈ Finset.range N, total g (Y0 s) (Y1 s) (Y2 s) (Y3 s) = total g A0 A1 A2 A3 := by
  unfold total
  refine LibBlockSum.sum_range_blocks N B (fun b => ∑ y : Fin h, ∑ x : Fin w, cell g A0 A1 A2 A3 b y x) _ (fun s => ?_)
  refine Finset.sum_congr rfl fun r _ => Finset.sum_congr rfl fun y _ => Finset.sum_congr rfl fun x _ => ?_
  exact cell_congr g A0 A1 A2 A3 _ _ _ _ _ r y x (fun k => h0 s r k y x) (fun k => h1 s r k y x)
    (fun k => h2 s r k y x) (fun k => h3 s r k y x)

end Cert.GatedSquares

end
-- ==== Proof.LibAxisSums.lean ====
/-
  Sums along one axis of an array of extended reals, read at an index, for any extents.

  On the extended reals a float sum is the exact sum, so the vector unit's reduction of one axis is, at every index
  of the result, the finite sum of the operand over that axis's coordinate with the other coordinates held fixed.
  The statements below spell this out with the indices written by coordinates for the four layouts a masked
  per-cell sum goes through — the channel axis of [a, c, h, w], the last axis of [a, h, w], the last axis of [a, h]
  and the leading axis of [a, b] — together with two casts that only insert or remove an axis of extent one, and the
  fact that a sum over all indices of a rank-3 array is the triple sum over its coordinates.
  Nothing here needs an entry to be finite: only that addition is commutative and associative.
-/
import Idealize.ShloMosaic.Lib.ValueIdx
import Idealize.ShloMosaic.Lib.Pipeline.Value
import Idealize.ShloMosaic.PureOps.Ideal.Laws

noncomputable section

namespace Cert.LibAxisSums

open Idealize.ShloMosaic Idealize.ShloMosaic.ValueIdx
open scoped BigOperators

/-! ## All indices of a rank-3 array -/

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates, in any additive commutative monoid. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## One axis summed by the vector unit, at Ideal -/

variable {φ : FTy}

/-- Axis 1 (the channels) of an [a, c, h, w] array summed: at (p, q, r) the sum over the channel k of the entry
    at (p, k, q, r). -/
theorem sum_axis1_of4 {n0 n1 n2 n3 : ℕ} (x : FVec Ideal ⟨4, ![n0, n1, n2, n3]⟩ φ) (acc : BitVec φ.bits)
    (h : (⟨4, ![n0, n1, n2, n3]⟩ : Shape).Reduces [1] ⟨3, ![n0, n2, n3]⟩) (hφ : FKind.Formats φ)
    (hacc : acc = FKind.add.neutral φ hφ) (p : Fin n0) (q : Fin n2) (r : Fin n3) :
    multiReduction .add [1] ⟨3, ![n0, n2, n3]⟩ x acc h hφ hacc (ix3 p q r) = ∑ k : Fin n1, x (ix4 p k q r) :=
  (Ideal.multiReduction_add_single x acc h hφ hacc (ix3 p q r)).trans
    (Finset.sum_congr rfl fun k _ => congrArg x (funext fun a => Fin.ext (by
      match a with
      | ⟨0, _⟩ => rfl
      | ⟨1, _⟩ => rfl
      | ⟨2, _⟩ => rfl
      | ⟨3, _⟩ => rfl)))

/-- The last axis of an [a, h, w] array summed: at (p, q) the sum over k of the entry at (p, q, k). -/
theorem sum_axis2_of3 {n0 n1 n2 : ℕ} (x : FVec Ideal ⟨3, ![n0, n1, n2]⟩ φ) (acc : BitVec φ.bits)
    (h : (⟨3, ![n0, n1, n2]⟩ : Shape).Reduces [2] ⟨2, ![n0, n1]⟩) (hφ : FKind.Formats φ)
    (hacc : acc = FKind.add.neutral φ hφ) (p : Fin n0) (q : Fin n1) :
    multiReduction .add [2] ⟨2, ![n0, n1]⟩ x acc h hφ hacc (ix2 p q) = ∑ k : Fin n2, x (ix3 p q k) :=
  (Ideal.multiReduction_add_single x acc h hφ hacc (ix2 p q)).trans
    (Finset.sum_congr rfl fun k _ => congrArg x (funext fun a => Fin.ext (by
      match a with
      | ⟨0, _⟩ => rfl
      | ⟨1, _⟩ => rfl
      | ⟨2, _⟩ => rfl)))

/-- The last axis of an [a, h] array summed: at p the sum over k of the entry at (p, k). -/
theorem sum_axis1_of2 {n0 n1 : ℕ} (x : FVec Ideal ⟨2, ![n0, n1]⟩ φ) (acc : BitVec φ.bits)
    (h : (⟨2, ![n0, n1]⟩ : Shape).Reduces [1] ⟨1, ![n0]⟩) (hφ : FKind.Formats φ)
    (hacc : acc = FKind.add.neutral φ hφ) (p : Fin n0) :
    multiReduction .add [1] ⟨1, ![n0]⟩ x acc h hφ hacc (ix1 p) = ∑ k : Fin n1, x (ix2 p k) :=
  (Ideal.multiReduction_add_single x acc h hφ hacc (ix1 p)).trans
    (Finset.sum_congr rfl fun k _ => congrArg x (funext fun a => Fin.ext (by
      match a with
      | ⟨0, _⟩ => rfl
      | ⟨1, _⟩ => rfl)))

/-- The leading axis of an [a, b] array summed: at q the sum over k of the entry at (k, q). -/
theorem sum_axis0_of2 {n0 n1 : ℕ} (x : FVec Ideal ⟨2, ![n0, n1]⟩ φ) (acc : BitVec φ.bits)
    (h : (⟨2, ![n0, n1]⟩ : Shape).Reduces [0] ⟨1, ![n1]⟩) (hφ : FKind.Formats φ)
    (hacc : acc = FKind.add.neutral φ hφ) (q : Fin n1) :
    multiReduction .add [0] ⟨1, ![n1]⟩ x acc h hφ hacc (ix1 q) = ∑ k : Fin n0, x (ix2 k q) :=
  (Ideal.multiReduction_add_single x acc h hφ hacc (ix1 q)).trans
    (Finset.sum_congr rfl fun k _ => congrArg x (funext fun a => Fin.ext (by
      match a with
      | ⟨0, _⟩ => rfl
      | ⟨1, _⟩ => rfl)))

/-! ## Casts that insert or remove an axis of extent one -/

variable {α : Type}

/-- An [a, 1, b, c] array cast to [a, b, c] reads, at (p, q, r), the operand at (p, 0, q, r). -/
theorem shapeCast_a1bc_abc_apply {a b c : ℕ} (x : (⟨4, ![a, 1, b, c]⟩ : Shape).Idx → α)
    (h : (⟨4, ![a, 1, b, c]⟩ : Shape).ShapeCasts ⟨3, ![a, b, c]⟩) (p : Fin a) (q : Fin b) (r : Fin c) :
    shapeCast ⟨3, ![a, b, c]⟩ x h (ix3 p q r) = x (ix4 p (0 : Fin 1) q r) :=
  shapeCast_apply x h _ _ (by
    rw [Shape.rowMajor_val_four, Shape.rowMajor_val_three]
    show ((p.val * 1 + 0) * b + q.val) * c + r.val = (p.val * b + q.val) * c + r.val
    rw [Nat.mul_one, Nat.add_zero])

/-- An [a] array cast to the column [a, 1] reads, at (p, u), the operand at p, whatever the unit coordinate u. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.LibAxisSums

end
-- ==== Proof.RefValue.lean ====
/-
  The reference's result is the gated sum of squared differences.

  The reference takes the mask from channel 0 of the first argument (a slice [b, 0:1, y, x] cast to [b, y, x], compared
  with zero), adds the two squared differences over the channel axis, keeps the channel sum where the mask is not zero
  and zero elsewhere, and adds all cells. Read index by index, that is the specification's total with mask channel 0:
  the slice and the cast only re-address channel 0, the comparison "unordered or different" on the extended reals is
  "different", and the zero the two sums start from is the real number 0.
-/
import proofs.«174446_j86655260164796_2_alg».proof.Defs
import proofs.«174446_j86655260164796_2_alg».proof.Proof.Gen.ReferenceIdeal.Read
import proofs.«174446_j86655260164796_2_alg».proof.Proof.GatedSquares
import proofs.«174446_j86655260164796_2_alg».proof.Proof.LibAxisSums
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx
open scoped BigOperators

/-- The mask's address: the cast [b, y, x] → [b, 1, y, x] followed by the slice's embedding lands on channel 0. -/
theorem gate_idx (b y x : Fin 128) : idx_main_v0 (idx_main_v1 (ix3 b y x)) = ix4 b (0 : Fin 5) y x := by
  funext a
  apply Fin.ext
  have hb := b.isLt
  have hy := y.isLt
  have hx := x.isLt
  match a with
  | ⟨0, _⟩ => show ((b.val * 128 + y.val) * 128 + x.val) / 16384 = b.val; omega
  | ⟨1, _⟩ => rfl
  | ⟨2, _⟩ => show ((b.val * 128 + y.val) * 128 + x.val) / 128 % 128 = y.val; omega
  | ⟨3, _⟩ => show ((b.val * 128 + y.val) * 128 + x.val) % 128 = x.val; omega

/-- The channel sum's addresses: channel k of cell (b, y, x). -/
theorem chan_idx (b y x : Fin 128) (k : Fin 5) : idx_main_v9 (ix3 b y x) k = ix4 b k y x := by
  funext a
  apply Fin.ext
  match a with
  | ⟨0, _⟩ => rfl
  | ⟨1, _⟩ => rfl
  | ⟨2, _⟩ => rfl
  | ⟨3, _⟩ => rfl

/-- The reference's gated array at a cell is the specification's cell. -/
theorem gated_apply (x0 x1 x2 x3 : S128x5x128x128.Idx → EReal) (b y x : Fin 128) :
    val_main_v11 (F := Ideal) x0 x1 x2 x3 (ix3 b y x) = GatedSquares.cell (0 : Fin 5) x0 x1 x2 x3 b y x := by
  rw [val_main_v11_apply, val_main_v3_apply, val_main_v1_apply, val_main_v0_apply, val_main_v2_apply,
    val_main_cst_apply, val_main_v9_apply, val_main_cst_0_apply, val_main_v10_apply, val_main_cst_1_apply, gate_idx]
  simp only [chan_idx, val_main_v8_apply, val_main_v5_apply, val_main_v7_apply, val_main_v4_apply, val_main_v6_apply,
    Ideal.ofBits_def, Ideal.ofBits_zero_f32, zero_add]
  rfl

/-- The reference's result: the total of all cells. -/
theorem result_eq (x0 x1 x2 x3 : S128x5x128x128.Idx → EReal) :
    val_main_v12 (F := Ideal) x0 x1 x2 x3 = fun _ => GatedSquares.total (0 : Fin 5) x0 x1 x2 x3 := by
  funext i
  rw [val_main_v12_apply, val_main_cst_2_apply, Ideal.ofBits_def, Ideal.ofBits_zero_f32, zero_add,
    LibAxisSums.sum_idx3]
  exact Finset.sum_congr rfl fun b _ => Finset.sum_congr rfl fun y _ => Finset.sum_congr rfl fun x _ =>
    gated_apply x0 x1 x2 x3 b y x

end Cert.ReferenceIdeal.RefValue

end
-- ==== Proof.Pieces.lean ====
/-
  What each case of the body leaves in the running scalar and in the output block.

  The body runs in one of three ways. At the first grid point it stores zero into the running scalar, reads it back,
  and stores the sum of that and the point's block value. At a middle point it reads the running scalar the point
  before left and stores it increased by the block value. At the last point it does the same and then copies the
  running scalar into the output block. In every case each buffer is written through its whole extent, so what a
  buffer holds afterwards is the value of the last store into it, with the loads it depends on reading the whole
  staging buffers: the four input blocks, and the running scalar as the point found it (or the zero just stored).
-/
import proofs.«174446_j86655260164796_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- A middle point leaves, in the running scalar, the scalar it found increased by its block value. -/
theorem sout_B (c : Dev nD) (i : grid0.Coords) (a1 : Memref sig .tc .vmem S8x5x128x128 .f32) (h1 : a1.IsWhole) (a2 : Memref sig .tc .vmem S8x5x128x128 .f32) (h2 : a2.IsWhole) (a3 : Memref sig .tc .vmem S8x5x128x128 .f32) (h3 : a3.IsWhole) (a4 : Memref sig .tc .vmem S8x5x128x128 .f32) (h4 : a4.IsWhole) (a5 : Memref sig .tc .vmem S1x1 .f32) (h5 : a5.IsWhole) (a6 : Memref sig .tc .vmem S1x1 .f32) (h6 : a6.IsWhole) (hc0 : ¬cond0_0 i) (hc1 : ¬cond0_1 i) (x0 x1 x2 x3 : Vec F S8x5x128x128 .f32) (xs0 : Vec F S1x1 .f32) :
    sout0_B_0 c i a1 h1 a2 h2 a3 h3 a4 h4 a5 h5 a6 h6 hc0 hc1 x0 x1 x2 x3 xs0 = k0_pay2 x0 x1 x2 x3 xs0 := by
  unfold sout0_B_0
  rw [View.read_writes_eq_canon _ _ _ (scover0_B_0 c i a1 h1 a2 h2 a3 h3 a4 h4 a5 h5 a6 h6 hc0 hc1 x0 x1 x2 x3 xs0)]
  unfold kernelRun0_B
  dsimp only
  rw [View.canon_unit_zero hz2]
  simp only [View.readAt_eq_ld, h1.read_unread, h2.read_unread, h3.read_unread, h4.read_unread, h6.read_unread,
    View.ld_unit_zero (S := S8x5x128x128) hz4, View.ld_unit_zero (S := S1x1) hz2]

/-- The first point leaves, in the running scalar, the zero it stored increased by its block value. -/
theorem sout_A (c : Dev nD) (i : grid0.Coords) (a1 : Memref sig .tc .vmem S8x5x128x128 .f32) (h1 : a1.IsWhole) (a2 : Memref sig .tc .vmem S8x5x128x128 .f32) (h2 : a2.IsWhole) (a3 : Memref sig .tc .vmem S8x5x128x128 .f32) (h3 : a3.IsWhole) (a4 : Memref sig .tc .vmem S8x5x128x128 .f32) (h4 : a4.IsWhole) (a5 : Memref sig .tc .vmem S1x1 .f32) (h5 : a5.IsWhole) (a6 : Memref sig .tc .vmem S1x1 .f32) (h6 : a6.IsWhole) (hc0 : cond0_0 i) (hc1 : ¬cond0_1 i) (x0 x1 x2 x3 : Vec F S8x5x128x128 .f32) :
    sout0_A_0 c i a1 h1 a2 h2 a3 h3 a4 h4 a5 h5 a6 h6 hc0 hc1 x0 x1 x2 x3 = k0_pay2 x0 x1 x2 x3 k0_pay1 := by
  unfold sout0_A_0
  rw [View.read_writes_eq_canon _ _ _ (scover0_A_0 c i a1 h1 a2 h2 a3 h3 a4 h4 a5 h5 a6 h6 hc0 hc1 x0 x1 x2 x3)]
  unfold kernelRun0_A
  dsimp only
  sl_unfold_words
  rw [View.canon_cons_unit_zero (S := S1x1) hz2, View.readCov_unit_zero (S := S1x1) _ hz2]
  simp only [View.readAt_eq_ld, h1.read_unread, h2.read_unread, h3.read_unread, h4.read_unread,
    View.ld_unit_zero (S := S8x5x128x128) hz4]

/-- The last point leaves the same in the running scalar as a middle point does, -/
theorem sout_C (c : Dev nD) (i : grid0.Coords) (a1 : Memref sig .tc .vmem S8x5x128x128 .f32) (h1 : a1.IsWhole) (a2 : Memref sig .tc .vmem S8x5x128x128 .f32) (h2 : a2.IsWhole) (a3 : Memref sig .tc .vmem S8x5x128x128 .f32) (h3 : a3.IsWhole) (a4 : Memref sig .tc .vmem S8x5x128x128 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i) (x0 x1 x2 x3 : Vec F S8x5x128x128 .f32) (xs0 : Vec F S1x1 .f32) :
    sout0_C_0 c i a1 h1 a2 h2 a3 h3 a4 h4 a5 h5 a6 h6 hc0 hc1 x0 x1 x2 x3 xs0 = k0_pay2 x0 x1 x2 x3 xs0 := by
  unfold sout0_C_0
  rw [View.read_writes_eq_canon _ _ _ (scover0_C_0 c i a1 h1 a2 h2 a3 h3 a4 h4 a5 h5 a6 h6 hc0 hc1 x0 x1 x2 x3 xs0)]
  unfold kernelRun0_C
  dsimp only
  sl_unfold_words
  rw [View.canon_unit_zero hz2]
  simp only [View.readAt_eq_ld, h1.read_unread, h2.read_unread, h3.read_unread, h4.read_unread, h6.read_unread,
    View.ld_unit_zero (S := S8x5x128x128) hz4, View.ld_unit_zero (S := S1x1) hz2]

/-- and copies it into the output block. -/
theorem out_C (c : Dev nD) (i : grid0.Coords) (a1 : Memref sig .tc .vmem S8x5x128x128 .f32) (h1 : a1.IsWhole) (a2 : Memref sig .tc .vmem S8x5x128x128 .f32) (h2 : a2.IsWhole) (a3 : Memref sig .tc .vmem S8x5x128x128 .f32) (h3 : a3.IsWhole) (a4 : Memref sig .tc .vmem S8x5x128x128 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i) (x0 x1 x2 x3 : Vec F S8x5x128x128 .f32) (xs0 : Vec F S1x1 .f32) :
    out0_C_4 c i a1 h1 a2 h2 a3 h3 a4 h4 a5 h5 a6 h6 hc0 hc1 x0 x1 x2 x3 xs0 = k0_pay2 x0 x1 x2 x3 xs0 := by
  unfold out0_C_4
  rw [View.read_writes_eq_canon _ _ _ (cover0_C_4 c i a1 h1 a2 h2 a3 h3 a4 h4 a5 h5 a6 h6 hc0 hc1 x0 x1 x2 x3 xs0)]
  unfold kernelRun0_C
  dsimp only
  sl_unfold_words
  rw [View.canon_unit_zero hz2, View.readCov_unit_zero (S := S1x1) _ hz2]
  simp only [View.readAt_eq_ld, h1.read_unread, h2.read_unread, h3.read_unread, h4.read_unread, h6.read_unread,
    View.ld_unit_zero (S := S8x5x128x128) hz4, View.ld_unit_zero (S := S1x1) hz2]

end Cert.KernelIdeal.Pieces

end
-- ==== Proof.Blocks.lean ====
/-
  The input blocks a grid point sees are batch blocks of the argument arrays.

  Each of the four input windows cuts its [128, 5, 128, 128] argument into 16 blocks of 8 batch rows, and point t is
  handed block t: the block's index map is (t, 0, 0, 0), decided once over the 16 points. An entry (r, k, y, x) of
  the block at point t is therefore the argument's entry (8·t + r, k, y, x) — a block's coordinate on an axis is
  always (block index) × (block extent) + (coordinate inside the block). The arguments are as the launch finds
  them: no host operation precedes the kernel.
-/
import proofs.«174446_j86655260164796_2_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- Window 0's block index at point t is (t, 0, 0, 0). -/
theorem idx_facts0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, win0_0.index t (0 : Fin 4) = t.val ∧ win0_0.index t (1 : Fin 4) = 0
    ∧ win0_0.index t (2 : Fin 4) = 0 ∧ win0_0.index t (3 : Fin 4) = 0)

/-- Entry (r, k, y, x) of window 0's block at point t is the argument's entry (R, k, y, x) with R = r + 8·t. -/
theorem iblk0_apply (c : Dev nD) (t : Fin cfg0.N) (r : Fin 8) (k : Fin 5) (y x : Fin 128) (R : Fin 128)
    (hR : R.val = r.val + 8 * t.val) :
    (iblk m c 0 t : Vec F S8x5x128x128 .f32) (ix4 r k y x) = m ((c : Thread nD τ).loc main_arg0) (ix4 R k y x) := by
  obtain ⟨i0, i1, i2, i3⟩ := idx_facts0 t
  unfold iblk
  rw [View.read_apply]
  show V m c main_arg0 _ = _
  rw [V_main_arg0]
  refine congrArg _ (funext fun a => Fin.ext ?_)
  match a with
  | ⟨0, _⟩ => show win0_0.index t 0 * 8 + 1 * r.val = R.val; rw [i0, hR]; omega
  | ⟨1, _⟩ => show win0_0.index t 1 * 5 + 1 * k.val = k.val; rw [i1]; omega
  | ⟨2, _⟩ => show win0_0.index t 2 * 128 + 1 * y.val = y.val; rw [i2]; omega
  | ⟨3, _⟩ => show win0_0.index t 3 * 128 + 1 * x.val = x.val; rw [i3]; omega

/-- Window 1's block index at point t is (t, 0, 0, 0). -/
theorem idx_facts1 : ∀ t : Fin cfg0.N, win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, win0_1.index t (0 : Fin 4) = t.val ∧ win0_1.index t (1 : Fin 4) = 0
    ∧ win0_1.index t (2 : Fin 4) = 0 ∧ win0_1.index t (3 : Fin 4) = 0)

/-- Entry (r, k, y, x) of window 1's block at point t is the argument's entry (R, k, y, x) with R = r + 8·t. -/
theorem iblk1_apply (c : Dev nD) (t : Fin cfg0.N) (r : Fin 8) (k : Fin 5) (y x : Fin 128) (R : Fin 128)
    (hR : R.val = r.val + 8 * t.val) :
    (iblk m c 1 t : Vec F S8x5x128x128 .f32) (ix4 r k y x) = m ((c : Thread nD τ).loc main_arg1) (ix4 R k y x) := by
  obtain ⟨i0, i1, i2, i3⟩ := idx_facts1 t
  unfold iblk
  rw [View.read_apply]
  show V m c main_arg1 _ = _
  rw [V_main_arg1]
  refine congrArg _ (funext fun a => Fin.ext ?_)
  match a with
  | ⟨0, _⟩ => show win0_1.index t 0 * 8 + 1 * r.val = R.val; rw [i0, hR]; omega
  | ⟨1, _⟩ => show win0_1.index t 1 * 5 + 1 * k.val = k.val; rw [i1]; omega
  | ⟨2, _⟩ => show win0_1.index t 2 * 128 + 1 * y.val = y.val; rw [i2]; omega
  | ⟨3, _⟩ => show win0_1.index t 3 * 128 + 1 * x.val = x.val; rw [i3]; omega

/-- Window 2's block index at point t is (t, 0, 0, 0). -/
theorem idx_facts2 : ∀ t : Fin cfg0.N, win0_2.index t (0 : Fin 4) = t.val ∧ win0_2.index t (1 : Fin 4) = 0
    ∧ win0_2.index t (2 : Fin 4) = 0 ∧ win0_2.index t (3 : Fin 4) = 0 :=
  (by decide +kernel : ∀ t : Fin grid0.N, win0_2.index t (0 : Fin 4) = t.val ∧ win0_2.index t (1 : Fin 4) = 0
    ∧ win0_2.index t (2 : Fin 4) = 0 ∧ win0_2.index t (3 : Fin 4) = 0)

/-- Entry (r, k, y, x) of window 2's block at point t is the argument's entry (R, k, y, x) with R = r + 8·t. -/
theorem iblk2_apply (c : Dev nD) (t : Fin cfg0.N) (r : Fin 8) (k : Fin 5) (y x : Fin 128) (R : Fin 128)
    (hR : R.val = r.val + 8 * t.val) :
    (iblk m c 2 t : Vec F S8x5x128x128 .f32) (ix4 r k y x) = m ((c : Thread nD τ).loc main_arg2) (ix4 R k y x) := by
  obtain ⟨i0, i1, i2, i3⟩ := idx_facts2 t
  unfold iblk
  rw [View.read_apply]
  show V m c main_arg2 _ = _
  rw [V_main_arg2]
  refine congrArg _ (funext fun a => Fin.ext ?_)
  match a with
  | ⟨0, _⟩ => show win0_2.index t 0 * 8 + 1 * r.val = R.val; rw [i0, hR]; omega
  | ⟨1, _⟩ => show win0_2.index t 1 * 5 + 1 * k.val = k.val; rw [i1]; omega
  | ⟨2, _⟩ => show win0_2.index t 2 * 128 + 1 * y.val = y.val; rw [i2]; omega
  | ⟨3, _⟩ => show win0_2.index t 3 * 128 + 1 * x.val = x.val; rw [i3]; omega

/-- Window 3's block index at point t is (t, 0, 0, 0). -/
theorem idx_facts3 : ∀ t : Fin cfg0.N, win0_3.index t (0 : Fin 4) = t.val ∧ win0_3.index t (1 : Fin 4) = 0
    ∧ win0_3.index t (2 : Fin 4) = 0 ∧ win0_3.index t (3 : Fin 4) = 0 :=
  (by decide +kernel : ∀ t : Fin grid0.N, win0_3.index t (0 : Fin 4) = t.val ∧ win0_3.index t (1 : Fin 4) = 0
    ∧ win0_3.index t (2 : Fin 4) = 0 ∧ win0_3.index t (3 : Fin 4) = 0)

/-- Entry (r, k, y, x) of window 3's block at point t is the argument's entry (R, k, y, x) with R = r + 8·t. -/
theorem iblk3_apply (c : Dev nD) (t : Fin cfg0.N) (r : Fin 8) (k : Fin 5) (y x : Fin 128) (R : Fin 128)
    (hR : R.val = r.val + 8 * t.val) :
    (iblk m c 3 t : Vec F S8x5x128x128 .f32) (ix4 r k y x) = m ((c : Thread nD τ).loc main_arg3) (ix4 R k y x) := by
  obtain ⟨i0, i1, i2, i3⟩ := idx_facts3 t
  unfold iblk
  rw [View.read_apply]
  show V m c main_arg3 _ = _
  rw [V_main_arg3]
  refine congrArg _ (funext fun a => Fin.ext ?_)
  match a with
  | ⟨0, _⟩ => show win0_3.index t 0 * 8 + 1 * r.val = R.val; rw [i0, hR]; omega
  | ⟨1, _⟩ => show win0_3.index t 1 * 5 + 1 * k.val = k.val; rw [i1]; omega
  | ⟨2, _⟩ => show win0_3.index t 2 * 128 + 1 * y.val = y.val; rw [i2]; omega
  | ⟨3, _⟩ => show win0_3.index t 3 * 128 + 1 * x.val = x.val; rw [i3]; omega

end Cert.KernelIdeal.Blocks

end
-- ==== Proof.BlockValue.lean ====
/-
  What one grid point adds: the gated sum of squared differences of its batch block.

  At a grid point the body holds a block of 8 batch rows of each of the four arrays. It takes the mask from channel 0
  of the first block, adds the two squared differences over the 5 channels, keeps that channel sum where the mask is
  not zero, and then sums the kept cells one axis at a time — over x, over y, over the 8 rows — with casts in between
  that only insert an axis of extent one. On the extended reals each of these reductions is the exact finite sum, so
  the value the point adds to the running scalar is the specification's total of the block, and the scalar it stores
  is what it found there plus that total.
-/
import proofs.«174446_j86655260164796_2_alg».proof.Proof.Gen.KernelIdeal.Skeleton
import proofs.«174446_j86655260164796_2_alg».proof.Proof.GatedSquares
import proofs.«174446_j86655260164796_2_alg».proof.Proof.LibAxisSums
import Idealize.ShloMosaic.Lib.ValueIdx
import Idealize.ShloMosaic.Lib.ValueLayout
import Idealize.ShloMosaic.PureOps.Ideal.Laws

noncomputable section

namespace Cert.KernelIdeal.BlockValue

open Cert.KernelIdeal Cert.KernelIdeal.Gen Idealize.ShloMosaic Idealize.ShloMosaic.ValueIdx
open scoped BigOperators

variable (x0 x1 x2 x3 : FVec Ideal S8x5x128x128 .f32)

/-- The body's gated array of the block: at a cell the channel sum of the squared differences where channel 0 of
    the first block is not zero, zero elsewhere. -/
def gated : FVec Ideal S8x128x128 .f32 :=
  select
    (cmpf .one
      (shapeCast S8x128x128 (extractStridedSlice (s := S8x5x128x128) S8x1x128x128 ![0, 0, 0, 0] x0 slices_S8x5x128x128_o0_0_0_0_S8x1x128x128)
        shapeCasts_S8x1x128x128_S8x128x128)
      (broadcast S8x128x128 (Scalar.ofBits .f32 0x00000000#32)))
    (multiReduction .add [1] S8x128x128 (addf (mulf (subf x0 x2) (subf x0 x2)) (mulf (subf x1 x3) (subf x1 x3)))
      0x00000000#32 reduces_S8x5x128x128_S8x128x128 (.inl rfl) rfl)
    (broadcast S8x128x128 (Scalar.ofBits .f32 0x00000000#32))

/-- At a cell it is the specification's cell with mask channel 0. -/
theorem gated_apply (b : Fin 8) (y x : Fin 128) :
    gated x0 x1 x2 x3 (ix3 b y x) = GatedSquares.cell (0 : Fin 5) x0 x1 x2 x3 b y x := by
  have hg : shapeCast S8x128x128 (extractStridedSlice (s := S8x5x128x128) S8x1x128x128 ![0, 0, 0, 0] x0 slices_S8x5x128x128_o0_0_0_0_S8x1x128x128)
        shapeCasts_S8x1x128x128_S8x128x128 (ix3 b y x) = x0 (ix4 b (0 : Fin 5) y x) :=
    (LibAxisSums.shapeCast_a1bc_abc_apply _ shapeCasts_S8x1x128x128_S8x128x128 b y x).trans
      (slice4_axis1_apply 0 x0 slices_S8x5x128x128_o0_0_0_0_S8x1x128x128 b (0 : Fin 1) y x (0 : Fin 5) rfl)
  have hs : multiReduction .add [1] S8x128x128 (addf (mulf (subf x0 x2) (subf x0 x2)) (mulf (subf x1 x3) (subf x1 x3)))
        0x00000000#32 reduces_S8x5x128x128_S8x128x128 (.inl rfl) rfl (ix3 b y x)
      = ∑ k : Fin 5, GatedSquares.sq x0 x1 x2 x3 (ix4 b k y x) :=
    LibAxisSums.sum_axis1_of4 (addf (mulf (subf x0 x2) (subf x0 x2)) (mulf (subf x1 x3) (subf x1 x3))) 0x00000000#32
      reduces_S8x5x128x128_S8x128x128 (.inl rfl) rfl b y x
  unfold gated GatedSquares.cell
  show Scalar.select (Ideal.cmp .one _ (Ideal.ofBits .f32 0x00000000#32)) _ (Ideal.ofBits .f32 0x00000000#32) = _
  rw [hg, hs, Ideal.ofBits_zero_f32]

/-- The block's sum as the body forms it: the gated array summed over x, then over y, then over the 8 rows, as a
    [1, 1] array. -/
def blockSum : FVec Ideal S1x1 .f32 :=
  shapeCast S1x1
    (multiReduction .add [0] S1
      (shapeCast S8x1
        (multiReduction .add [1] S8
          (multiReduction .add [2] S8x128 (gated x0 x1 x2 x3) 0x00000000#32 reduces_S8x128x128_S8x128 (.inl rfl) rfl)
          0x00000000#32 reduces_S8x128_S8 (.inl rfl) rfl)
        shapeCasts_S8_S8x1)
      0x00000000#32 reduces_S8x1_S1 (.inl rfl) rfl)
    shapeCasts_S1_S1x1

/-- Its one entry is the specification's total of the block. -/
theorem blockSum_apply : blockSum x0 x1 x2 x3 (ix2 (0 : Fin 1) (0 : Fin 1)) = GatedSquares.total (0 : Fin 5) x0 x1 x2 x3 :=
  (LibAxisSums.shapeCast_a_a1_apply _ shapeCasts_S1_S1x1 (0 : Fin 1) (0 : Fin 1)).trans <|
  (LibAxisSums.sum_axis0_of2 _ 0x00000000#32 reduces_S8x1_S1 (.inl rfl) rfl (0 : Fin 1)).trans <|
  Finset.sum_congr rfl fun b _ =>
  (LibAxisSums.shapeCast_a_a1_apply _ shapeCasts_S8_S8x1 b (0 : Fin 1)).trans <|
  (LibAxisSums.sum_axis1_of2 _ 0x00000000#32 reduces_S8x128_S8 (.inl rfl) rfl b).trans <|
  Finset.sum_congr rfl fun y _ =>
  (LibAxisSums.sum_axis2_of3 _ 0x00000000#32 reduces_S8x128x128_S8x128 (.inl rfl) rfl b y).trans <|
  Finset.sum_congr rfl fun x _ => gated_apply x0 x1 x2 x3 b y x

/-- Every index of a [1, 1] array is (0, 0). -/
theorem idx11 (j : S1x1.Idx) : j = ix2 (0 : Fin 1) (0 : Fin 1) := by
  funext a
  apply Fin.ext
  match a with
  | ⟨0, _⟩ => have h0 : (j 0).val < 1 := (j 0).isLt; show (j 0).val = 0; omega
  | ⟨1, _⟩ => have h1 : (j 1).val < 1 := (j 1).isLt; show (j 1).val = 0; omega

/-- The scalar the body stores: what it found in the running scalar plus the block's total. -/
theorem pay2_eq (acc : FVec Ideal S1x1 .f32) :
    k0_pay2 (F := Ideal) x0 x1 x2 x3 acc
      = fun _ => acc (ix2 (0 : Fin 1) (0 : Fin 1)) + GatedSquares.total (0 : Fin 5) x0 x1 x2 x3 := by
  have e : k0_pay2 (F := Ideal) x0 x1 x2 x3 acc = shapeCast S1x1 (addf acc (blockSum x0 x1 x2 x3)) shapeCasts_S1x1_S1x1 := rfl
  rw [e, shapeCast_self]
  funext j
  rw [idx11 j]
  exact congrArg (acc (ix2 (0 : Fin 1) (0 : Fin 1)) + ·) (blockSum_apply x0 x1 x2 x3)

/-- The scalar the first point stores before it accumulates: zero. -/
theorem pay1_eq : k0_pay1 (F := Ideal) = fun _ => (0 : EReal) := by
  have e : k0_pay1 (F := Ideal) = shapeCast S1x1 (broadcast S1x1 (Scalar.ofBits .f32 0x00000000#32)) shapeCasts_S1x1_S1x1 := rfl
  rw [e, shapeCast_self]
  funext j
  exact Ideal.ofBits_zero_f32

end Cert.KernelIdeal.BlockValue

end
-- ==== Proof.Accum.lean ====
/-
  The running scalar across the grid is the sum of the block totals so far.

  The kernel keeps one scalar between grid points. Point 0 resets it to zero and adds its block's total; every later
  point adds its own block's total to what the point before left; the last point, 15, also copies the scalar into
  the output block. By induction on the point, after point n the scalar is the sum of the block totals of points
  0, …, n, and the output block after point 15 holds the sum over all 16 points. Cutting the batch axis into the 16
  blocks of 8 rows the windows hand out, those block totals add up to the specification's total of the whole arrays.
-/
import proofs.«174446_j86655260164796_2_alg».proof.Proof.Gen.KernelIdeal.Frame
import proofs.«174446_j86655260164796_2_alg».proof.Proof.Pieces
import proofs.«174446_j86655260164796_2_alg».proof.Proof.Blocks
import proofs.«174446_j86655260164796_2_alg».proof.Proof.BlockValue
import proofs.«174446_j86655260164796_2_alg».proof.Proof.GatedSquares

set_option maxRecDepth 16384

noncomputable section

namespace Cert.KernelIdeal.Accum

open Cert.KernelIdeal Cert.KernelIdeal.Gen Idealize.ShloMosaic Idealize.ShloMosaic.TcCoe Idealize.SL.Sem
open Idealize.ShloMosaic.ValueIdx
open scoped BigOperators

/-! ## The three cases at a grid point, over the point's own blocks -/

section Cases

variable {F : FTy → Type} [FloatOps F]
variable (m : (ℓ : Loc nD τ sig) → Buf (Elt F) ℓ)

theorem scratch_A (c : Dev nD) (t : Fin cfg0.N) (hc0 : cond0_0 (grid0.coords t)) (hc1 : ¬cond0_1 (grid0.coords t)) :
    sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) = k0_pay2 (iblk m c 0 t) (iblk m c 1 t) (iblk m c 2 t) (iblk m c 3 t) k0_pay1 :=
  Pieces.sout_A c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t)

theorem scratch_B (c : Dev nD) (t : Fin cfg0.N) (hc0 : ¬cond0_0 (grid0.coords t)) (hc1 : ¬cond0_1 (grid0.coords t))
    (acc : Vec F S1x1 .f32) :
    sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) acc = k0_pay2 (iblk m c 0 t) (iblk m c 1 t) (iblk m c 2 t) (iblk m c 3 t) acc :=
  Pieces.sout_B c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) acc

theorem scratch_C (c : Dev nD) (t : Fin cfg0.N) (hc0 : ¬cond0_0 (grid0.coords t)) (hc1 : cond0_1 (grid0.coords t))
    (acc : Vec F S1x1 .f32) :
    sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) acc = k0_pay2 (iblk m c 0 t) (iblk m c 1 t) (iblk m c 2 t) (iblk m c 3 t) acc :=
  Pieces.sout_C c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) acc

theorem output_C (c : Dev nD) (t : Fin cfg0.N) (hc0 : ¬cond0_0 (grid0.coords t)) (hc1 : cond0_1 (grid0.coords t))
    (acc : Vec F S1x1 .f32) :
    out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) acc = k0_pay2 (iblk m c 0 t) (iblk m c 1 t) (iblk m c 2 t) (iblk m c 3 t) acc :=
  Pieces.out_C c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) acc

end Cases

/-! ## At Ideal: the running sum -/

variable (m : (ℓ : Loc nD τ sig) → Buf (Elt Ideal) ℓ)

/-- The total of the blocks point s is handed (zero past the grid). -/
def blockTotal (c : Dev nD) (s : ℕ) : EReal :=
  if hs : s < cfg0.N then
    GatedSquares.total (n := 8) (c := 5) (h := 128) (w := 128) (0 : Fin 5)
      (iblk m c 0 ⟨s, hs⟩) (iblk m c 1 ⟨s, hs⟩) (iblk m c 2 ⟨s, hs⟩) (iblk m c 3 ⟨s, hs⟩)
  else 0

/-- One point's store: the scalar found plus the point's block total. -/
theorem step (c : Dev nD) (t : Fin cfg0.N) (acc : FVec Ideal S1x1 .f32) :
    k0_pay2 (F := Ideal) (iblk m c 0 t) (iblk m c 1 t) (iblk m c 2 t) (iblk m c 3 t) acc
      = fun _ => acc (ix2 (0 : Fin 1) (0 : Fin 1)) + blockTotal m c t.val :=
  (BlockValue.pay2_eq (iblk m c 0 t) (iblk m c 1 t) (iblk m c 2 t) (iblk m c 3 t) acc).trans (by
    unfold blockTotal
    rw [dif_pos t.isLt])

/-- After point n the running scalar is the sum of the block totals of points 0, …, n. -/
theorem scratch_eq (c : Dev nD) : ∀ (n : ℕ) (hn : n < cfg0.N),
    (outsAt0 m c n hn).2 = fun _ => ∑ s ∈ Finset.range (n + 1), blockTotal m c s
  | 0, hn => by
    have h0 : (⟨0, hn⟩ : Fin cfg0.N).val % 16 = 0 := rfl
    have h1 : ¬(⟨0, hn⟩ : Fin cfg0.N).val % 16 = 15 := by dsimp only; omega
    refine (congrArg Prod.snd (outsAt0_A m c ⟨0, hn⟩ h0 h1)).trans ?_
    refine (scratch_A m c ⟨0, hn⟩ ((hcond0_0 ⟨0, hn⟩).mpr h0) (fun h => h1 ((hcond0_1 ⟨0, hn⟩).mp h))).trans ?_
    refine (step m c ⟨0, hn⟩ k0_pay1).trans ?_
    funext _
    rw [BlockValue.pay1_eq, Finset.sum_range_one]
    exact zero_add _
  | n + 1, hn => by
    have hN : cfg0.N = 16 := N_0
    have h0 : ¬(⟨n + 1, hn⟩ : Fin cfg0.N).val % 16 = 0 := by dsimp only; omega
    have ih := scratch_eq c n (Nat.lt_of_succ_lt hn)
    by_cases h1 : (⟨n + 1, hn⟩ : Fin cfg0.N).val % 16 = 15
    · refine (congrArg Prod.snd (outsAt0_C m c ⟨n + 1, hn⟩ h0 h1)).trans ?_
      refine (scratch_C m c ⟨n + 1, hn⟩ (fun h => h0 ((hcond0_0 ⟨n + 1, hn⟩).mp h)) ((hcond0_1 ⟨n + 1, hn⟩).mpr h1) (outsAt0 m c n (Nat.lt_of_succ_lt hn)).2).trans ?_
      refine (step m c ⟨n + 1, hn⟩ (outsAt0 m c n (Nat.lt_of_succ_lt hn)).2).trans ?_
      funext _
      rw [ih, Finset.sum_range_succ _ (n + 1)]
    · refine (congrArg Prod.snd (outsAt0_B m c ⟨n + 1, hn⟩ h0 h1)).trans ?_
      refine (scratch_B m c ⟨n + 1, hn⟩ (fun h => h0 ((hcond0_0 ⟨n + 1, hn⟩).mp h)) (fun h => h1 ((hcond0_1 ⟨n + 1, hn⟩).mp h)) (outsAt0 m c n (Nat.lt_of_succ_lt hn)).2).trans ?_
      refine (step m c ⟨n + 1, hn⟩ (outsAt0 m c n (Nat.lt_of_succ_lt hn)).2).trans ?_
      funext _
      rw [ih, Finset.sum_range_succ _ (n + 1)]

/-- After the last point the output block holds the sum of all 16 block totals. -/
theorem output_eq (c : Dev nD) (hn : 15 < cfg0.N) :
    (outsAt0 m c 15 hn).1 = fun _ => ∑ s ∈ Finset.range 16, blockTotal m c s := by
  have h0 : ¬(⟨15, hn⟩ : Fin cfg0.N).val % 16 = 0 := by dsimp only; omega
  have h1 : (⟨15, hn⟩ : Fin cfg0.N).val % 16 = 15 := rfl
  have ih := scratch_eq m c 14 (Nat.lt_of_succ_lt hn)
  refine (congrArg Prod.fst (outsAt0_C m c ⟨15, hn⟩ h0 h1)).trans ?_
  refine (output_C m c ⟨15, hn⟩ (fun h => h0 ((hcond0_0 ⟨15, hn⟩).mp h)) ((hcond0_1 ⟨15, hn⟩).mpr h1) (outsAt0 m c 14 (Nat.lt_of_succ_lt hn)).2).trans ?_
  refine (step m c ⟨15, hn⟩ (outsAt0 m c 14 (Nat.lt_of_succ_lt hn)).2).trans ?_
  funext _
  rw [ih, Finset.sum_range_succ _ 15]

/-- The same at the grid's last point, however that point is written. -/
theorem output_at (c : Dev nD) (t : Fin cfg0.N) (h15 : t.val = 15) :
    (outsAt0 m c t.val t.isLt).1 = fun _ => ∑ s ∈ Finset.range 16, blockTotal m c s := by
  obtain ⟨n, hn⟩ := t
  dsimp only at h15
  subst h15
  exact output_eq m c hn

/-- The 16 block totals add up to the total of the whole argument arrays. -/
theorem blocks_total (c : Dev nD) :
    ∑ s ∈ Finset.range 16, blockTotal m c s
      = GatedSquares.total (n := 128) (c := 5) (h := 128) (w := 128) (0 : Fin 5)
          (m ((c : Thread nD τ).loc main_arg0)) (m ((c : Thread nD τ).loc main_arg1))
          (m ((c : Thread nD τ).loc main_arg2)) (m ((c : Thread nD τ).loc main_arg3)) := by
  have hN : cfg0.N = 16 := N_0
  have key := GatedSquares.total_blocks (c := 5) (h := 128) (w := 128) 16 8 (0 : Fin 5)
    (m ((c : Thread nD τ).loc main_arg0)) (m ((c : Thread nD τ).loc main_arg1))
    (m ((c : Thread nD τ).loc main_arg2)) (m ((c : Thread nD τ).loc main_arg3))
    (fun s => if hs : s < cfg0.N then (iblk m c 0 ⟨s, hs⟩ : FVec Ideal S8x5x128x128 .f32) else fun _ => 0)
    (fun s => if hs : s < cfg0.N then (iblk m c 1 ⟨s, hs⟩ : FVec Ideal S8x5x128x128 .f32) else fun _ => 0)
    (fun s => if hs : s < cfg0.N then (iblk m c 2 ⟨s, hs⟩ : FVec Ideal S8x5x128x128 .f32) else fun _ => 0)
    (fun s => if hs : s < cfg0.N then (iblk m c 3 ⟨s, hs⟩ : FVec Ideal S8x5x128x128 .f32) else fun _ => 0)
    (fun s r k y x => by
      have hs : s.val < cfg0.N := by have := s.isLt; omega
      rw [dif_pos hs]
      exact Blocks.iblk0_apply m c ⟨s.val, hs⟩ r k y x (LibBlockSum.blockIdx s r) (LibBlockSum.blockIdx_val s r))
    (fun s r k y x => by
      have hs : s.val < cfg0.N := by have := s.isLt; omega
      rw [dif_pos hs]
      exact Blocks.iblk1_apply m c ⟨s.val, hs⟩ r k y x (LibBlockSum.blockIdx s r) (LibBlockSum.blockIdx_val s r))
    (fun s r k y x => by
      have hs : s.val < cfg0.N := by have := s.isLt; omega
      rw [dif_pos hs]
      exact Blocks.iblk2_apply m c ⟨s.val, hs⟩ r k y x (LibBlockSum.blockIdx s r) (LibBlockSum.blockIdx_val s r))
    (fun s r k y x => by
      have hs : s.val < cfg0.N := by have := s.isLt; omega
      rw [dif_pos hs]
      exact Blocks.iblk3_apply m c ⟨s.val, hs⟩ r k y x (LibBlockSum.blockIdx s r) (LibBlockSum.blockIdx_val s r))
  refine Eq.trans (Finset.sum_congr rfl fun s hs => ?_) key
  have hs' : s < cfg0.N := by have := Finset.mem_range.mp hs; omega
  unfold blockTotal
  rw [dif_pos hs', dif_pos hs', dif_pos hs', dif_pos hs', dif_pos hs']

end Cert.KernelIdeal.Accum

end
-- ==== Proof.KernelValue.lean ====
/-
  The kernel's result: the gated sum of squared differences of the whole argument arrays.

  The output window is one [1, 1] block that only the last grid point writes back, so the result array after the
  region is what the output block held after point 15: the sum of the 16 block totals, which is the specification's
  total of the whole arrays. The one host operation after the region reshapes that [1, 1] array to a scalar, which
  changes no value. The argument arrays are inputs of the region and end as they began.
-/
import proofs.«174446_j86655260164796_2_alg».proof.Defs
import proofs.«174446_j86655260164796_2_alg».proof.Proof.Gen.KernelIdeal.Frame
import proofs.«174446_j86655260164796_2_alg».proof.Proof.Accum
import Idealize.ShloMosaic.Lib.Pipeline.Value
import Idealize.ShloMosaic.Lib.StableHlo.Run
import Idealize.ShloMosaic.Lib.Tactic

set_option maxRecDepth 16384

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ) (ρ : Dev nD → PrngReg)

/-- The result array's contents after the region: its one entry is the sum of the 16 block totals. -/
abbrev result (c : Dev nD) : Buf (Elt Ideal) ((c : Thread nD τ).loc main_v0) :=
  fun _ => (∑ s ∈ Finset.range 16, Accum.blockTotal m c s : EReal)

/-- The one write-back, at the last point, writes it: the block is the whole [1, 1] array. -/
theorem flushed_eq (c : Dev nD) (t : Fin cfg0.N) (hf : (cfg0.win 4).flush t = true) :
    (dats m 0 c).flushed 4 t = ((cfg0.win 4).blk t).view.read (Elt Ideal) (result m c) := by
  have hN : cfg0.N = 16 := N_0
  have h15 : t.val = 15 := by have := (flush0_4 t).mp hf; have := t.isLt; omega
  show (cfg0.win 4).cut (grid0.coords t) ((dats m 0 c).after 4 t) = _
  rw [after0_4, Accum.output_at m c t h15]
  rfl

/-- So the result array ends holding it: the last point's block covers the array. -/
theorem final (c : Dev nD) : (dats m 0 c).arrAt 4 cfg0.N = result m c :=
  (dats m 0 c).arrAt_eq_of_cover 4 (result m c) (flushed_eq m c) fun i =>
    ⟨t0_15, (flush0_4 t0_15).mpr rfl, by
      show i ∈ ((View.whole main_v0).slice (win0_4.rect t0_15)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index t0_15 0 * win0_4.size 0 ≤ (i 0 : Nat) ∧ (i 0 : Nat) < win0_4.index t0_15 0 * win0_4.size 0 + win0_4.xsize (grid0.coords t0_15) 0
        rw [show win0_4.index t0_15 0 * win0_4.size 0 = 0 from by decide +kernel, show win0_4.xsize (grid0.coords t0_15) 0 = 1 from by decide +kernel]; omega
      | ⟨1, _⟩ =>
        show win0_4.index t0_15 1 * win0_4.size 1 ≤ (i 1 : Nat) ∧ (i 1 : Nat) < win0_4.index t0_15 1 * win0_4.size 1 + win0_4.xsize (grid0.coords t0_15) 1
        rw [show win0_4.index t0_15 1 * win0_4.size 1 = 0 from by decide +kernel, show win0_4.xsize (grid0.coords t0_15) 1 = 1 from by decide +kernel]; omega⟩

/-- The reshape after the region turns the [1, 1] array into the scalar with the same entry. -/
theorem tail_eq (c : Dev nD) :
    Pipeline.afterTail₀ cfgs (dats m) 0 (V0 m) [hostOps1] c main_v1
      = fun _ => (∑ s ∈ Finset.range 16, Accum.blockTotal m c s : EReal) := by
  have hw : Pipeline.withArrays (cfgs 0).spec c (V0 m c) (fun w => (dats m 0 c).arrAt w (cfgs 0).N) (Proc.devRef .tc main_v0)
      = result m c :=
    (Pipeline.withArrays_arr spec0 launch0.win.arr_inj c _ _ 4).trans (final m c)
  unfold Pipeline.afterTail₀
  show StableHlo.after hostOps1 _ (Proc.devRef .tc main_v1) = _
  after_results
  funext i
  show shapeCast S_ (Pipeline.withArrays (cfgs 0).spec c (V0 m c) (fun w => (dats m 0 c).arrAt w (cfgs 0).N) (Proc.devRef .tc main_v0))
    shapeCasts_S1x1_S_ i = _
  rw [hw]
  rfl

/-- The scalar result's buffer is no array of the region: the region leaves it to the reshape. -/
theorem mem_rest : main_v1 ∈ Pipeline.restRefs sig (cfgs 0).spec := by
  refine Pipeline.mem_restRefs_of main_v1 rfl ?_
  decide

/-- The kernel program's run: the result is the gated sum of squared differences of the argument arrays, which end
    unchanged. -/
theorem run : θ_run defs (onTc (τ := τ) (main (F := Ideal))) ⟨m, fun _ => 0, ρ⟩ (fun r => ∀ c : Dev nD,
      r.2.mem ((c.tc : Thread nD τ).loc main_v1)
        = (fun _ => GatedSquares.total (n := 128) (c := 5) (h := 128) (w := 128) (0 : Fin 5)
            (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v1 mem_rest).trans ((tail_eq m c).trans (funext fun _ => Accum.blocks_total m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.KValue

end
-- ==== Proof.lean ====
/-
  A gated sum of squared differences: the kernel against its reference, on the extended reals.

  Both programs take four arrays A, B, P, Q of shape [128, 5, 128, 128] and return one scalar: at each cell (b, y, x)
  the squared differences (A − P)² + (B − Q)² are added over the 5 channels, the cell is kept where channel 0 of A is
  not zero there and replaced by zero elsewhere, and all 128·128·128 cells are added.

  The reference does this in one pass over the whole arrays. The kernel walks the batch axis in 16 blocks of 8 rows:
  at each grid point it adds up its block's cells one axis at a time and adds that block total to a running scalar,
  which it resets at the first point and copies out at the last; a reshape then turns the [1, 1] result into a scalar.

  On the extended reals every operation is exact, so the two results differ only in the order and grouping of one
  finite sum, and addition of extended reals is commutative and associative: the block totals add up to the total
  (the batch axis regrouped as 16 × 8), and a sum over all cells is the iterated sum over b, y, x. The comparison with
  zero is "different" on both sides, since nothing is unordered on the extended reals, and the zeros the sums start from
  are the number 0. No entry needs to be finite for any of this, so the precondition is not used.

  The three frames are the generated ones (the reference's is its generated run with the result dropped); the
  idealization rewrote nothing, so there is nothing to preserve.
-/
import proofs.«174446_j86655260164796_2_alg».proof.Defs
import proofs.«174446_j86655260164796_2_alg».proof.Proof.Gen.Kernel
import proofs.«174446_j86655260164796_2_alg».proof.Proof.Gen.Kernel.Skeleton
import proofs.«174446_j86655260164796_2_alg».proof.Proof.Gen.Kernel.Launch
import proofs.«174446_j86655260164796_2_alg».proof.Proof.Gen.Kernel.Points
import proofs.«174446_j86655260164796_2_alg».proof.Proof.Gen.Kernel.Frame
import proofs.«174446_j86655260164796_2_alg».proof.Proof.Gen.KernelIdeal
import proofs.«174446_j86655260164796_2_alg».proof.Proof.Gen.KernelIdeal.Skeleton
import proofs.«174446_j86655260164796_2_alg».proof.Proof.Gen.KernelIdeal.Launch
import proofs.«174446_j86655260164796_2_alg».proof.Proof.Gen.KernelIdeal.Points
import proofs.«174446_j86655260164796_2_alg».proof.Proof.Gen.KernelIdeal.Frame
import proofs.«174446_j86655260164796_2_alg».proof.Proof.Gen.ReferenceIdeal
import proofs.«174446_j86655260164796_2_alg».proof.Proof.Gen.ReferenceIdeal.Run
import proofs.«174446_j86655260164796_2_alg».proof.Proof.Gen.ReferenceIdeal.Read
import proofs.«174446_j86655260164796_2_alg».proof.Proof.Gen.Pre_finite_inputs
import proofs.«174446_j86655260164796_2_alg».proof.Proof.RefValue
import proofs.«174446_j86655260164796_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the gated sum of squared differences of the argument arrays, which agree. -/
theorem algebraic : Cert.algebraic_KernelIdeal_ReferenceIdeal := by
  intro m ρ m' ρ' _ hagree
  refine ⟨fun c => fun _ => Cert.GatedSquares.total (n := 128) (c := 5) (h := 128) (w := 128) (0 : Fin 5)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v12_eq, Cert.ReferenceIdeal.RefValue.result_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
